-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x4096x64 : Shape := ⟨4, ![1, 8, 4096, 64]⟩
abbrev S_ : Shape := ⟨0, ![]⟩

class Facts : Prop where
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_
  h_S_ : 0 < S_.numel

variable [Facts]

def fn {F : FTy → Type} [FloatOps F] (main_arg0 : FVec F S1x8x4096x64 .f32) (main_arg1 : FVec F S1x8x4096x64 .f32) : IVec S_ 1 :=
  let main_v0 : FVec F S1x8x4096x64 .f32 := Host.absf main_arg0
  let main_cst : FVec F S_ .f32 := constant S_ .f32 0x7F800000#32
  let main_v1 : FVec F S1x8x4096x64 .f32 := broadcastInDim S1x8x4096x64 ![] bcast_S_S1x8x4096x64 main_cst
  let main_v2 : IVec S1x8x4096x64 1 := cmpf .olt main_v0 main_v1
  let main_c : IVec S_ 1 := constantI S_ 1 1#1
  let main_v3 : IVec S_ 1 := (fun x v => Host.reduce IntOp.andi x v reducesTo_S1x8x4096x64_S_d0_1_2_3 h_S_) main_v2 main_c
  let main_v4 : FVec F S1x8x4096x64 .f32 := Host.absf main_arg1
  let main_cst_0 : FVec F S_ .f32 := constant S_ .f32 0x7F800000#32
  let main_v5 : FVec F S1x8x4096x64 .f32 := broadcastInDim S1x8x4096x64 ![] bcast_S_S1x8x4096x64 main_cst_0
  let main_v6 : IVec S1x8x4096x64 1 := cmpf .olt main_v4 main_v5
  let main_c_1 : IVec S_ 1 := constantI S_ 1 1#1
  let main_v7 : IVec S_ 1 := (fun x v => Host.reduce IntOp.andi x v reducesTo_S1x8x4096x64_S_d0_1_2_3 h_S_) main_v6 main_c_1
  let main_v8 : IVec S_ 1 := andi main_v3 main_v7
  main_v8
-- ==== Kernel.lean ====
abbrev S1x8x4096x64 : Shape := ⟨4, ![1, 8, 4096, 64]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S1x8x4096x4096 : Shape := ⟨4, ![1, 8, 4096, 4096]⟩
abbrev S1x512x64 : Shape := ⟨3, ![1, 512, 64]⟩
abbrev S1x4096x64 : Shape := ⟨3, ![1, 4096, 64]⟩
abbrev S1x512x1 : Shape := ⟨3, ![1, 512, 1]⟩
abbrev S1x1x4096 : Shape := ⟨3, ![1, 1, 4096]⟩
abbrev S1x512x4096 : Shape := ⟨3, ![1, 512, 4096]⟩
abbrev S512x64 : Shape := ⟨2, ![512, 64]⟩
abbrev S512x1 : Shape := ⟨2, ![512, 1]⟩
abbrev S1x1024x64 : Shape := ⟨3, ![1, 1024, 64]⟩
abbrev S1024x64 : Shape := ⟨2, ![1024, 64]⟩
abbrev S1x1x1024 : Shape := ⟨3, ![1, 1, 1024]⟩
abbrev S1x1024 : Shape := ⟨2, ![1, 1024]⟩
abbrev S512x1024 : Shape := ⟨2, ![512, 1024]⟩
abbrev S1x512x1024 : Shape := ⟨3, ![1, 512, 1024]⟩

abbrev nBuf : Space → Nat
  | .hbm => 23
  | .vmem => 10
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S8x4096x64, .f32⟩
  | .hbm, ⟨3, _⟩ => ⟨S8x4096x64, .f32⟩
  | .hbm, ⟨4, _⟩ => ⟨S8x4096x64, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S8x4096x64, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x1x4096, .f32⟩
  | .hbm, ⟨16, _⟩ => ⟨S_, .f32⟩
  | .hbm, ⟨17, _⟩ => ⟨S8x1x4096, .f32⟩
  | .hbm, ⟨18, _⟩ => ⟨S8x1x4096, .f32⟩
  | .hbm, ⟨19, _⟩ => ⟨S8x4096x64, .bf16⟩
  | .hbm, ⟨20, _⟩ => ⟨S8x4096x64, .bf16⟩
  | .hbm, ⟨21, _⟩ => ⟨S8x4096x4096, .f32⟩
  | .hbm, ⟨22, _⟩ => ⟨S1x8x4096x4096, .f32⟩
  | .local _ .vmem, ⟨0, _⟩ => ⟨S1x512x64, .bf16⟩
  | .local _ .vmem, ⟨1, _⟩ => ⟨S1x512x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | .local _ .vmem, ⟨8, _⟩ => ⟨S1x512x4096, .f32⟩
  | .local _ .vmem, ⟨9, _⟩ => ⟨S1x512x4096, .f32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_call0_cst_1 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_cst_2 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x8x4096x64_S8x4096x64 : S1x8x4096x64.ShapeCasts S8x4096x64
  reducesTo_S8x4096x64_S8x4096_d2 : S8x4096x64.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  transposes_S8x4096x1_S8x1x4096_0_2_1 : S8x4096x1.Transposes [0, 2, 1] S8x1x4096
  bcast_S_S8x1x4096 : S_.BroadcastsInDim S8x1x4096 (![] : Fin 0 → Fin S8x1x4096.rank)
  bitsLt_bf16_f32 : FTy.bits .bf16 < FTy.bits .f32
  shapeCasts_S8x4096x4096_S1x8x4096x4096 : S8x4096x4096.ShapeCasts S1x8x4096x4096
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x4096x64_S1x1024x64_0_0_0 : ∀ a, (![0, 0, 0] : Fin 3 → Nat) a + S1x1024x64.size a ≤ S1x4096x64.size a
  h_S1x1024x64 : 0 < S1x1024x64.numel
  shapeCasts_S1x1024x64_S1024x64 : S1x1024x64.ShapeCasts S1024x64
  inb_S1x1x4096_S1x1x1024_0_0_0 : ∀ a, (![0, 0, 0] : Fin 3 → Nat) a + S1x1x1024.size a ≤ S1x1x4096.size a
  h_S1x1x1024 : 0 < S1x1x1024.numel
  shapeCasts_S1x1x1024_S1x1024 : S1x1x1024.ShapeCasts S1x1024
  broadcasts_S512x1_S512x1024 : S512x1.Broadcasts S512x1024
  broadcasts_S1x1024_S512x1024 : S1x1024.Broadcasts S512x1024
  inb_S1x512x4096_S1x512x1024_0_0_0 : ∀ a, (![0, 0, 0] : Fin 3 → Nat) a + S1x512x1024.size a ≤ S1x512x4096.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1x4096x64_S1x1024x64_0_1024_0 : ∀ a, (![0, 1024, 0] : Fin 3 → Nat) a + S1x1024x64.size a ≤ S1x4096x64.size a
  inb_S1x1x4096_S1x1x1024_0_0_1024 : ∀ a, (![0, 0, 1024] : Fin 3 → Nat) a + S1x1x1024.size a ≤ S1x1x4096.size a
  inb_S1x512x4096_S1x512x1024_0_0_1024 : ∀ a, (![0, 0, 1024] : Fin 3 → Nat) a + S1x512x1024.size a ≤ S1x512x4096.size a
  inb_S1x4096x64_S1x1024x64_0_2048_0 : ∀ a, (![0, 2048, 0] : Fin 3 → Nat) a + S1x1024x64.size a ≤ S1x4096x64.size a
  inb_S1x1x4096_S1x1x1024_0_0_2048 : ∀ a, (![0, 0, 2048] : Fin 3 → Nat) a + S1x1x1024.size a ≤ S1x1x4096.size a
  inb_S1x512x4096_S1x512x1024_0_0_2048 : ∀ a, (![0, 0, 2048] : Fin 3 → Nat) a + S1x512x1024.size a ≤ S1x512x4096.size a
  inb_S1x4096x64_S1x1024x64_0_3072_0 : ∀ a, (![0, 3072, 0] : Fin 3 → Nat) a + S1x1024x64.size a ≤ S1x4096x64.size a
  inb_S1x1x4096_S1x1x1024_0_0_3072 : ∀ a, (![0, 0, 3072] : Fin 3 → Nat) a + S1x1x1024.size a ≤ S1x1x4096.size a
  inb_S1x512x4096_S1x512x1024_0_0_3072 : ∀ a, (![0, 0, 3072] : Fin 3 → Nat) a + S1x512x1024.size a ≤ S1x512x4096.size a
  dot_S512x64_S1024x64_S512x1024_1_1_0_0_n_n_wf : DotDims.WF S512x64 S1024x64 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x4096x64.size a
  hwx0_0 : ∀ i : grid0.Coords, EltTy.bits .bf16 = 32 ∨ (Rect.block (s := S8x4096x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .bf16 = 32 ∨ (Rect.block (s := S8x4096x64) S1x4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .f32 = 32 ∨ (Rect.block (s := S8x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x4096.size a ≤ S8x4096x4096.size a
  hwx0_4 : ∀ i : grid0.Coords, EltTy.bits .f32 = 32 ∨ (Rect.block (s := S8x4096x4096) S1x512x4096.size (cc0_transform_4 i) (hinb0_4 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf

abbrev win0_0 : Pipeline.Window sig grid0 :=
  Pipeline.Window.ofSpec (Memref.whole main_call0_v13) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v12) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v15) S1x512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x8x4096x64 : Shape := ⟨4, ![1, 8, 4096, 64]⟩
abbrev S_ : Shape := ⟨0, ![]⟩
abbrev S1x8x4096 : Shape := ⟨3, ![1, 8, 4096]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S_, .f32⟩
  | .hbm, ⟨4, _⟩ => ⟨S1x8x4096, .f32⟩
  | .hbm, ⟨5, _⟩ => ⟨S1x8x4096x64, .f32⟩
  | .hbm, ⟨6, _⟩ => ⟨S_, .f32⟩
  | .hbm, ⟨7, _⟩ => ⟨S1x8x4096, .f32⟩
  | .hbm, ⟨8, _⟩ => ⟨S1x8x4096x4096, .f32⟩
  | .hbm, ⟨9, _⟩ => ⟨S1x8x4096x1, .f32⟩
  | .hbm, ⟨10, _⟩ => ⟨S1x8x1x4096, .f32⟩
  | .hbm, ⟨11, _⟩ => ⟨S1x8x4096x4096, .f32⟩
  | .hbm, ⟨12, _⟩ => ⟨S1x8x4096x4096, .f32⟩
  | .hbm, ⟨13, _⟩ => ⟨S1x8x4096x4096, .f32⟩
  | .hbm, ⟨14, _⟩ => ⟨S_, .f32⟩
  | .hbm, ⟨15, _⟩ => ⟨S1x8x4096x4096, .f32⟩
  | .hbm, ⟨16, _⟩ => ⟨S1x8x4096x4096, .f32⟩
  | .hbm, ⟨17, _⟩ => ⟨S1x8x4096x4096, .f32⟩
  | .hbm, ⟨18, _⟩ => ⟨S_, .f32⟩
  | .hbm, ⟨19, _⟩ => ⟨S1x8x4096x4096, .f32⟩
  | .hbm, ⟨20, _⟩ => ⟨S1x8x4096x4096, .f32⟩
  | .hbm, ⟨21, _⟩ => ⟨S_, .f32⟩
  | .hbm, ⟨22, _⟩ => ⟨S1x8x4096x4096, .f32⟩
  | .hbm, ⟨23, _⟩ => ⟨S1x8x4096x4096, .f32⟩
  | .hbm, ⟨24, _⟩ => ⟨S1x8x4096x4096, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S1x8x4096x64_S1x8x4096_d3 : S1x8x4096x64.ReducesTo [3] S1x8x4096
  h_S_ : 0 < S_.numel
  bcast_S1x8x4096_S1x8x4096x1_0_1_2 : S1x8x4096.BroadcastsInDim S1x8x4096x1 (![0, 1, 2] : Fin 3 → Fin S1x8x4096x1.rank)
  bcast_S1x8x4096_S1x8x1x4096_0_1_3 : S1x8x4096.BroadcastsInDim S1x8x1x4096 (![0, 1, 3] : Fin 3 → Fin S1x8x1x4096.rank)
  bcast_S1x8x4096x1_S1x8x4096x4096_0_1_2_3 : S1x8x4096x1.BroadcastsInDim S1x8x4096x4096 (![0, 1, 2, 3] : Fin 4 → Fin S1x8x4096x4096.rank)
  bcast_S1x8x1x4096_S1x8x4096x4096_0_1_2_3 : S1x8x1x4096.BroadcastsInDim S1x8x4096x4096 (![0, 1, 2, 3] : Fin 4 → Fin S1x8x4096x4096.rank)
  bcast_S_S1x8x4096x4096 : S_.BroadcastsInDim S1x8x4096x4096 (![] : Fin 0 → Fin S1x8x4096x4096.rank)
  dot_S1x8x4096x64_S1x8x4096x64_S1x8x4096x4096_3_3_2_2_01_01_wf : DotDims.WF S1x8x4096x64 S1x8x4096x64 S1x8x4096x4096 [3] [3] [2] [2] [0, 1] [0, 1]

variable [Facts₀]

def dot_S1x8x4096x64_S1x8x4096x64_S1x8x4096x4096_3_3_2_2_01_01 : DotDims S1x8x4096x64 S1x8x4096x64 S1x8x4096x4096 where
  lhsContracting := [3]
  rhsContracting := [3]
  lhsNonContracting := [2]
  rhsNonContracting := [2]
  lhsBatch := [0, 1]
  rhsBatch := [0, 1]
  wf := dot_S1x8x4096x64_S1x8x4096x64_S1x8x4096x4096_3_3_2_2_01_01_wf

class Facts : Prop extends Facts₀ where

variable [Facts]
-- ==== Proof.LibERealSum.lean ====
/-
  Finite sums of real numbers inside the extended reals.

  The embedding of ℝ into [-∞, +∞] is additive, so it commutes with a finite sum; and a sum of products of embedded reals
  is the embedded sum of the products.  This is how an inner product of arrays with real entries is shown to be a real number.
-/
import Idealize.ShloMosaic.PureOps.Ideal

namespace Cert.Lib

/-- The embedding of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of embedded reals is the embedding of the real sum of products. -/
theorem sum_coe_mul_coe {ι : Type*} (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

end Cert.Lib
-- ==== Proof.RbfSpec.lean ====
/-
  The mathematics of the pairwise radial-basis-function kernel, with no program in sight.

  For a head `h`, a query row `n` and a key row `m` write  ⟨q,k⟩ = Σ_d q[h,n,d]·k[h,m,d],  ‖q‖² = ⟨q,q⟩,  ‖k‖² = ⟨k,k⟩.
  One side computes   exp (min (⟨q,k⟩ + (-½)·‖q‖² + (-½)·‖k‖², 0)),
  the other           exp ((-½) · max (‖q‖² + ‖k‖² − 2·⟨q,k⟩, 0)).
  Over the reals these agree:  (-½)·(‖q‖² + ‖k‖² − 2⟨q,k⟩) = ⟨q,k⟩ − ½‖q‖² − ½‖k‖²  (distributivity), and multiplying by the
  negative number -½ turns a maximum with 0 into a minimum with 0.  Distributivity fails at the infinities of the extended
  reals, so the law is stated for arrays all of whose entries are real numbers.
-/
import Idealize.ShloMosaic.PureOps.Ideal
import Idealize.ShloMosaic.PureOps.Ideal.Laws
import Idealize.ShloMosaic.Lib.ValueIdx
import proofs.«179096_j75196287418966_2_alg».proof.Proof.LibERealSum

noncomputable section

namespace Cert.Rbf

open Idealize.ShloMosaic Idealize.ShloMosaic.ValueIdx

/-- The shape of `query` and of `key`: one batch, 8 heads, 4096 rows of 64 features. -/
abbrev Rows : Shape := ⟨4, ![1, 8, 4096, 64]⟩
/-- The shape of the result: per head, one entry per pair (query row, key row). -/
abbrev Pairs : Shape := ⟨4, ![1, 8, 4096, 4096]⟩

/-- The float32 word of -0.5, read as an extended real. -/
abbrev negHalf : EReal := Ideal.ofBits .f32 0xBF000000#32
/-- The float32 word of 2.0, read as an extended real. -/
abbrev two : EReal := Ideal.ofBits .f32 0x40000000#32

/-- The word 0xBF000000 denotes the real number -1/2 exactly. -/
theorem negHalf_eq : negHalf = ((-1 / 2 : ℝ) : EReal) := by
  simp [Ideal.ofBits, Ideal.ieee, -EReal.coe_mul]; norm_num

/-- The word 0x40000000 denotes the real number 2 exactly. -/
theorem two_eq : two = ((2 : ℝ) : EReal) := by
  simp [Ideal.ofBits, Ideal.ieee, -EReal.coe_mul]; norm_num

/-- The inner product of row `n` of `q` with row `m` of `k`, in head `h`. -/
def inner (q k : Rows.Idx → EReal) (h : Fin 8) (n m : Fin 4096) : EReal :=
  ∑ d : Fin 64, q (ix4 (0 : Fin 1) h n d) * k (ix4 (0 : Fin 1) h m d)

/-- The squared norm of row `n` of `q` in head `h`. -/
def normSq (q : Rows.Idx → EReal) (h : Fin 8) (n : Fin 4096) : EReal :=
  ∑ d : Fin 64, q (ix4 (0 : Fin 1) h n d) * q (ix4 (0 : Fin 1) h n d)

/-- The entry as the expanded form computes it: exp (min (⟨q,k⟩ − ½‖q‖² − ½‖k‖², 0)). -/
def expandedAt (q k : Rows.Idx → EReal) (h : Fin 8) (n m : Fin 4096) : EReal :=
  Ideal.exp (min ((inner q k h n m + negHalf * normSq q h n) + negHalf * normSq k h m) 0)

/-- The entry as the distance form computes it: exp (−½ · max (‖q‖² + ‖k‖² − 2⟨q,k⟩, 0)). -/
def distanceAt (q k : Rows.Idx → EReal) (h : Fin 8) (n m : Fin 4096) : EReal :=
  Ideal.exp (negHalf * max ((normSq q h n + normSq k h m) - two * inner q k h n m) 0)

/-- The whole result array, in the expanded form. -/
def rbf (q k : Rows.Idx → EReal) : Pairs.Idx → EReal := fun i => expandedAt q k (i 1) (i 2) (i 3)

/-- Over the reals: the expanded exponent is the distance exponent. -/
theorem exponent_real (a b d : ℝ) : min (a + (-1 / 2) * b + (-1 / 2) * d) 0 = (-1 / 2) * max (b + d - 2 * a) 0 := by
  rcases le_total (b + d - 2 * a) 0 with h | h
  · rw [max_eq_right h, min_eq_right (by linarith)]; ring
  · rw [max_eq_left h, min_eq_left (by linarith)]; ring

/-- The same on real numbers embedded in the extended reals. -/
theorem exponent_coe (a b d : ℝ) :
    min (((a : EReal) + negHalf * (b : EReal)) + negHalf * (d : EReal)) 0
      = negHalf * max (((b : EReal) + (d : EReal)) - two * (a : EReal)) 0 := by
  have hmin : ∀ x y : ℝ, min (x : EReal) (y : EReal) = ((min x y : ℝ) : EReal) := fun x y =>
    (EReal.coe_strictMono.monotone.map_min).symm
  have hmax : ∀ x y : ℝ, max (x : EReal) (y : EReal) = ((max x y : ℝ) : EReal) := fun x y =>
    (EReal.coe_strictMono.monotone.map_max).symm
  rw [negHalf_eq, two_eq, ← EReal.coe_zero, ← EReal.coe_mul, ← EReal.coe_mul, ← EReal.coe_mul, ← EReal.coe_add,
    ← EReal.coe_add, ← EReal.coe_add, ← EReal.coe_sub, hmin, hmax, ← EReal.coe_mul, exponent_real]

/-- Where every entry of `q` and of `k` is a real number, the distance form IS the expanded form. -/
theorem distanceAt_eq_expandedAt (q k : Rows.Idx → EReal) (hq : ∀ i, ∃ r : ℝ, q i = (r : EReal))
    (hk : ∀ i, ∃ r : ℝ, k i = (r : EReal)) (h : Fin 8) (n m : Fin 4096) :
    distanceAt q k h n m = expandedAt q k h n m := by
  choose qr hqr using hq
  choose kr hkr using hk
  have ei : inner q k h n m = ((∑ d : Fin 64, qr (ix4 (0 : Fin 1) h n d) * kr (ix4 (0 : Fin 1) h m d) : ℝ) : EReal) := by
    unfold inner; rw [← Cert.Lib.sum_coe_mul_coe]; exact Finset.sum_congr rfl fun d _ => by rw [hqr, hkr]
  have eq : normSq q h n = ((∑ d : Fin 64, qr (ix4 (0 : Fin 1) h n d) * qr (ix4 (0 : Fin 1) h n d) : ℝ) : EReal) := by
    unfold normSq; rw [← Cert.Lib.sum_coe_mul_coe]; exact Finset.sum_congr rfl fun d _ => by rw [hqr]
  have ek : normSq k h m = ((∑ d : Fin 64, kr (ix4 (0 : Fin 1) h m d) * kr (ix4 (0 : Fin 1) h m d) : ℝ) : EReal) := by
    unfold normSq; rw [← Cert.Lib.sum_coe_mul_coe]; exact Finset.sum_congr rfl fun d _ => by rw [hkr]
  unfold distanceAt expandedAt
  rw [ei, eq, ek, exponent_coe]

end Cert.Rbf

end
-- ==== Proof.Finite.lean ====
/-
  From the precondition to plain real numbers.

  The precondition says, of each of the two input arrays, that EVERY entry has absolute value strictly below +∞
  (one conjunction of two "for all entries" statements).  An extended real whose absolute value max(x, −x) is below +∞ is
  neither +∞ nor −∞, hence the embedding of a real number.
-/
import proofs.«179096_j75196287418966_2_alg».proof.Defs
import proofs.«179096_j75196287418966_2_alg».proof.Proof.Gen.Pre_finite_inputs
import Idealize.ShloMosaic.Lib.ReduceAll
import Idealize.ShloMosaic.Lib.Affine
import Idealize.ShloMosaic.Lib.ValueIdx

noncomputable section

namespace Cert.Finite

open Idealize.ShloMosaic Idealize.ShloMosaic.ValueIdx

/-- A rank-0 array has one index. -/
instance : Subsingleton Cert.Pre_finite_inputs.S_.Idx := ⟨fun a b => funext fun d => d.elim0⟩

/-- The float32 word 0x7F800000 is +∞. -/
theorem ofBits_inf : Ideal.ofBits .f32 0x7F800000#32 = ⊤ := by
  simp [Ideal.ofBits, Ideal.ieee]

/-- An extended real with |x| < +∞ is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- Under the precondition's function being all ones, every entry of both arrays is a real number. -/
theorem reals_of_pre (a0 a1 : Cert.Pre_finite_inputs.S1x8x4096x64.Idx → EReal)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨h1, h2⟩ := IntOp.andi_eq_one.mp h0
  have real : ∀ (a : Cert.Pre_finite_inputs.S1x8x4096x64.Idx → EReal) (i : Cert.Pre_finite_inputs.S1x8x4096x64.Idx),
      Ideal.cmp .olt (max (a i) (-(a i))) (Ideal.ofBits .f32 0x7F800000#32) = 1#1 → ∃ r : ℝ, a i = (r : EReal) := by
    intro a i hi
    rw [ofBits_inf] at hi
    exact real_of_abs_lt_top _ hi
  exact ⟨fun i => real a0 i (Host.reduce_andi_all _ _ _ _ _ h1 i), fun i => real a1 i (Host.reduce_andi_all _ _ _ _ _ h2 i)⟩

end Cert.Finite

end
-- ==== Proof.RefValue.lean ====
/-
  The reference, index by index.

  The reference computes, at (0, h, n, m),  exp ((-½) · max ((‖q[h,n,:]‖² + ‖k[h,m,:]‖²) − 2·⟨q[h,n,:], k[h,m,:]⟩, 0)):
  the distance form of the specification.  Where the inputs hold real numbers this is the expanded form (the law of the
  specification), which is what the kernel computes.
-/
import proofs.«179096_j75196287418966_2_alg».proof.Proof.Gen.ReferenceIdeal.Read
import proofs.«179096_j75196287418966_2_alg».proof.Proof.RbfSpec

noncomputable section

namespace Cert.ReferenceIdeal.RefValue

open Cert.ReferenceIdeal Cert.ReferenceIdeal.Gen Cert.ReferenceIdeal.Read Idealize.ShloMosaic Idealize.ShloMosaic.ValueIdx

/-- The reference's result at (0, h, n, m) is the distance form. -/
theorem reference_apply (x0 x1 : S1x8x4096x64.Idx → EReal) (h : Fin 8) (n m : Fin 4096) :
    val_main_v17 (F := Ideal) x0 x1 (ix4 (0 : Fin 1) h n m) = Cert.Rbf.distanceAt x0 x1 h n m := by
  rw [val_main_v17_apply, val_main_v16_apply, val_main_v15_apply, val_main_cst_3_apply, val_main_v14_apply, val_main_v13_apply,
    val_main_cst_2_apply, val_main_v12_apply, val_main_v9_apply, val_main_v11_apply, val_main_v10_apply, val_main_cst_1_apply,
    val_main_v4_apply, val_main_v7_apply, val_main_v5_apply, val_main_v1_apply, val_main_v8_apply, val_main_v6_apply, val_main_v3_apply,
    val_main_cst_apply, val_main_cst_0_apply]
  have e1 : ∀ k : Fin 64, idx_main_v1 (idx_main_v5 (idx_main_v7 (ix4 (0 : Fin 1) h n m))) k = ix4 (0 : Fin 1) h n k := fun k =>
    funext fun a => Fin.ext (by match a with | ⟨0, _⟩ => rfl | ⟨1, _⟩ => rfl | ⟨2, _⟩ => rfl | ⟨3, _⟩ => rfl)
  have e2 : ∀ k : Fin 64, idx_main_v3 (idx_main_v6 (idx_main_v8 (ix4 (0 : Fin 1) h n m))) k = ix4 (0 : Fin 1) h m k := fun k =>
    funext fun a => Fin.ext (by match a with | ⟨0, _⟩ => rfl | ⟨1, _⟩ => rfl | ⟨2, _⟩ => rfl | ⟨3, _⟩ => rfl)
  have e3 : ∀ k : Fin 64, lidx_main_v4 (ix4 (0 : Fin 1) h n m) k = ix4 (0 : Fin 1) h n k := fun k =>
    funext fun a => Fin.ext (by match a with | ⟨0, _⟩ => rfl | ⟨1, _⟩ => rfl | ⟨2, _⟩ => rfl | ⟨3, _⟩ => rfl)
  have e4 : ∀ k : Fin 64, ridx_main_v4 (ix4 (0 : Fin 1) h n m) k = ix4 (0 : Fin 1) h m k := fun k =>
    funext fun a => Fin.ext (by match a with | ⟨0, _⟩ => rfl | ⟨1, _⟩ => rfl | ⟨2, _⟩ => rfl | ⟨3, _⟩ => rfl)
  simp only [Ideal.hostUnary_exp_def, Ideal.mulf_def, Ideal.maximumf_def, Ideal.subf_def, Ideal.addf_def, Ideal.ofBits_def,
    Ideal.ofBits_zero_f32, zero_add, val_main_v0_apply, val_main_v2_apply, e1, e2, e3, e4]
  rfl

/-- Where `query` and `key` hold real numbers, the reference's result array is the specification's. -/
theorem reference_eq_rbf (x0 x1 : S1x8x4096x64.Idx → EReal) (h0 : ∀ i, ∃ r : ℝ, x0 i = (r : EReal)) (h1 : ∀ i, ∃ r : ℝ, x1 i = (r : EReal)) :
    val_main_v17 (F := Ideal) x0 x1 = Cert.Rbf.rbf x0 x1 := by
  funext i
  obtain ⟨h, n, m, rfl⟩ : ∃ (h : Fin 8) (n m : Fin 4096), i = ix4 (0 : Fin 1) h n m :=
    ⟨i 1, i 2, i 3, funext fun a => by
      match a with
      | ⟨0, _⟩ => exact Fin.ext (by have : (i 0).val < 1 := (i 0).isLt; show (i 0).val = 0; omega)
      | ⟨1, _⟩ => rfl
      | ⟨2, _⟩ => rfl
      | ⟨3, _⟩ => rfl⟩
  rw [reference_apply, Cert.Rbf.distanceAt_eq_expandedAt x0 x1 h0 h1]
  rfl

end Cert.ReferenceIdeal.RefValue

end
-- ==== Proof.LibColumnBroadcast.lean ====
/-
  A column spread over columns.

  `vector.broadcast` of an [a, 1] column to [a, b] repeats the column b times: the entry at (p, c) is the column's entry at
  row p, whatever c.  (The companion of the library's row form, [1, b] to [a, b].)
-/
import Idealize.ShloMosaic.Lib.Pipeline.Value
import Idealize.ShloMosaic.Lib.ValueIdx

namespace Cert.Lib

open Idealize.ShloMosaic Idealize.ShloMosaic.ValueIdx

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.Lib
-- ==== Proof.BodyChunk.lean ====
/-
  The arithmetic of the kernel body.

  The body cuts its 512 × 4096 block of results into four column chunks of 1024 and computes each the same way from the
  query block q (512 × 64), the column hq of half negated squared norms (512 × 1), the chunk's 1024 key rows kc and the
  chunk's piece hk of the row of half negated squared norms:
      chunk[r, j] = exp (min ((Σ_d q[r,d]·kc[j,d] + hq[r]) + hk[j], 0)).
  Each of the four stored payloads is this one function, and it is read here at an entry (r, j).
-/
import proofs.«179096_j75196287418966_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«179096_j75196287418966_2_alg».proof.Proof.LibColumnBroadcast

noncomputable section

namespace Cert.KernelIdeal.Body

open Cert.KernelIdeal Cert.KernelIdeal.Gen Idealize.ShloMosaic Idealize.ShloMosaic.ValueIdx

/-- One 512 × 1024 column chunk of a block of results. -/
def chunk (q : FVec Ideal S512x64 .bf16) (hq : FVec Ideal S512x1 .f32) (kc : Vec Ideal S1x1024x64 .bf16) (hk : Vec Ideal S1x1x1024 .f32) :
    FVec Ideal S512x1024 .f32 :=
  exp (minimumf
    (addf
      (addf (matmul dot_S512x64_S1024x64_S512x1024_1_1_0_0_n_n none q (shapeCast S1024x64 kc shapeCasts_S1x1024x64_S1024x64 : FVec Ideal S1024x64 .bf16)
          (constant (F := Ideal) S512x1024 .f32 0x00000000#32))
        (broadcastTo S512x1024 hq broadcasts_S512x1_S512x1024))
      (broadcastTo S512x1024 (shapeCast S1x1024 hk shapeCasts_S1x1x1024_S1x1024 : FVec Ideal S1x1024 .f32) broadcasts_S1x1024_S512x1024))
    (broadcast S512x1024 (Scalar.ofBits (F := Ideal) .f32 0x00000000#32)))

/-- The four stored payloads are the chunk function, with a unit axis put in front. -/
theorem pay3_eq (v0 : Vec Ideal S1x512x64 .bf16) (v2 : Vec Ideal S1x512x1 .f32) (v4 : Vec Ideal S1x1024x64 .bf16) (v6 : Vec Ideal S1x1x1024 .f32) :
    k0_pay3 v0 v2 v4 v6 = shapeCast S1x512x1024 (chunk (k0_pay1 v0) (k0_pay2 v2) v4 v6) shapeCasts_S512x1024_S1x512x1024 := rfl
theorem pay5_eq (v0 : Vec Ideal S1x512x64 .bf16) (v2 : Vec Ideal S1x512x1 .f32) (v19 : Vec Ideal S1x1024x64 .bf16) (v21 : Vec Ideal S1x1x1024 .f32) :
    k0_pay5 (k0_pay4 v0 v2 v19 v21) = shapeCast S1x512x1024 (chunk (k0_pay1 v0) (k0_pay2 v2) v19 v21) shapeCasts_S512x1024_S1x512x1024 := rfl
theorem pay6_eq (v1 : FVec Ideal S512x64 .bf16) (v3 : FVec Ideal S512x1 .f32) (v34 : Vec Ideal S1x1024x64 .bf16) (v36 : Vec Ideal S1x1x1024 .f32) :
    k0_pay6 v1 v3 v34 v36 = shapeCast S1x512x1024 (chunk v1 v3 v34 v36) shapeCasts_S512x1024_S1x512x1024 := rfl
theorem pay7_eq (v1 : FVec Ideal S512x64 .bf16) (v3 : FVec Ideal S512x1 .f32) (v49 : Vec Ideal S1x1024x64 .bf16) (v51 : Vec Ideal S1x1x1024 .f32) :
    k0_pay7 v1 v3 v49 v51 = shapeCast S1x512x1024 (chunk v1 v3 v49 v51) shapeCasts_S512x1024_S1x512x1024 := rfl

/-- In the product, the left operand's row is the result's row … -/
theorem lhs_row (i : S512x1024.Idx) (q : dot_S512x64_S1024x64_S512x1024_1_1_0_0_n_n.contr.Idx) :
    (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide),
    dif_pos (show (0 : Fin S512x64.rank) ∈ dot_S512x64_S1024x64_S512x1024_1_1_0_0_n_n.lhsNonContracting by decide)]
  rfl
/-- … and its column is the contracted feature; -/
theorem lhs_col (i : S512x1024.Idx) (q : dot_S512x64_S1024x64_S512x1024_1_1_0_0_n_n.contr.Idx) :
    (dot_S512x64_S1024x64_S512x1024_1_1_0_0_n_n.lhsIdx i q 1).val = (q ⟨0, by decide⟩).val :=
  dot_S512x64_S1024x64_S512x1024_1_1_0_0_n_n.lhsIdx_val_of_single rfl i q
/-- the right operand's row is the result's column … -/
theorem rhs_row (i : S512x1024.Idx) (q : dot_S512x64_S1024x64_S512x1024_1_1_0_0_n_n.contr.Idx) :
    (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide),
    dif_pos (show (0 : Fin S1024x64.rank) ∈ dot_S512x64_S1024x64_S512x1024_1_1_0_0_n_n.rhsNonContracting by decide)]
  rfl
/-- … and its column is the contracted feature. -/
theorem rhs_col (i : S512x1024.Idx) (q : dot_S512x64_S1024x64_S512x1024_1_1_0_0_n_n.contr.Idx) :
    (dot_S512x64_S1024x64_S512x1024_1_1_0_0_n_n.rhsIdx i q 1).val = (q ⟨0, by decide⟩).val :=
  dot_S512x64_S1024x64_S512x1024_1_1_0_0_n_n.rhsIdx_val_of_single rfl i q

/-- The matrix product of the chunk at (r, j): the sum over the 64 features of q[r,d]·kc[j,d]. -/
theorem product_apply (q : FVec Ideal S512x64 .bf16) (k2 : FVec Ideal S1024x64 .bf16) (r : Fin 512) (j : Fin 1024) :
    matmul dot_S512x64_S1024x64_S512x1024_1_1_0_0_n_n none q k2 (constant (F := Ideal) S512x1024 .f32 0x00000000#32) (ix2 r j)
      = ∑ d : Fin 64, q (ix2 r d) * k2 (ix2 j d) := by
  simp only [matmul]
  rw [Ideal.matmul_constant_zero_apply, ← Equiv.sum_comp (contrEquiv1 dot_S512x64_S1024x64_S512x1024_1_1_0_0_n_n 64 rfl rfl).symm]
  refine Finset.sum_congr rfl fun d _ => ?_
  have hd := contrEquiv1_symm_val dot_S512x64_S1024x64_S512x1024_1_1_0_0_n_n 64 rfl rfl d
  have el : dot_S512x64_S1024x64_S512x1024_1_1_0_0_n_n.lhsIdx (ix2 r j) ((contrEquiv1 dot_S512x64_S1024x64_S512x1024_1_1_0_0_n_n 64 rfl rfl).symm d) = ix2 r d :=
    funext fun a => Fin.ext (by
      match a with
      | ⟨0, _⟩ => exact lhs_row _ _
      | ⟨1, _⟩ => exact (lhs_col _ _).trans hd)
  have er : dot_S512x64_S1024x64_S512x1024_1_1_0_0_n_n.rhsIdx (ix2 r j) ((contrEquiv1 dot_S512x64_S1024x64_S512x1024_1_1_0_0_n_n 64 rfl rfl).symm d) = ix2 j d :=
    funext fun a => Fin.ext (by
      match a with
      | ⟨0, _⟩ => exact rhs_row _ _
      | ⟨1, _⟩ => exact (rhs_col _ _).trans hd)
  rw [el, er]

/-- The chunk at (r, j). -/
theorem chunk_apply (q : FVec Ideal S512x64 .bf16) (hq : FVec Ideal S512x1 .f32) (kc : Vec Ideal S1x1024x64 .bf16) (hk : Vec Ideal S1x1x1024 .f32)
    (r : Fin 512) (j : Fin 1024) :
    chunk q hq kc hk (ix2 r j)
      = Ideal.exp (min (((∑ d : Fin 64, q (ix2 r d) * kc (ix3 (0 : Fin 1) j d)) + hq (ix2 r (0 : Fin 1))) + hk (ix3 (0 : Fin 1) (0 : Fin 1) j)) 0) := by
  unfold chunk
  show Ideal.exp (min ((matmul dot_S512x64_S1024x64_S512x1024_1_1_0_0_n_n none q (shapeCast S1024x64 kc shapeCasts_S1x1024x64_S1024x64 : FVec Ideal S1024x64 .bf16)
        (constant (F := Ideal) S512x1024 .f32 0x00000000#32) (ix2 r j)
      + broadcastTo S512x1024 hq broadcasts_S512x1_S512x1024 (ix2 r j))
      + broadcastTo S512x1024 (shapeCast S1x1024 hk shapeCasts_S1x1x1024_S1x1024 : FVec Ideal S1x1024 .f32) broadcasts_S1x1024_S512x1024 (ix2 r j))
      (Ideal.ofBits .f32 0x00000000#32)) = _
  rw [product_apply, Cert.Lib.broadcastTo_a1_ab_apply, broadcastTo_1b_ab_apply, shapeCast_1ab_ab_apply, Ideal.ofBits_zero_f32]
  refine congrArg (fun s => Ideal.exp (min ((s + _) + _) 0)) (Finset.sum_congr rfl fun d _ => ?_)
  rw [shapeCast_1ab_ab_apply]

end Cert.KernelIdeal.Body

end
-- ==== Proof.BodyBlock.lean ====
/-
  What the body leaves in the output block, as ONE function of the four input blocks.

  The body's four stores write the column ranges [0,1024), [1024,2048), [2048,3072), [3072,4096) of the 512 × 4096 output
  block; the store for a range computes its chunk from the key rows and the row-norm entries of the same range.  So every
  entry (r, n) of the block is
      exp (min ((Σ_d x0[r,d]·x1[n,d] + x2[r]) + x3[n], 0))
  whatever chunk n falls in.
-/
import proofs.«179096_j75196287418966_2_alg».proof.Proof.Gen.KernelIdeal.Frame
import proofs.«179096_j75196287418966_2_alg».proof.Proof.BodyChunk

set_option maxRecDepth 16384

noncomputable section

namespace Cert.KernelIdeal.Body

open Cert.KernelIdeal Cert.KernelIdeal.Gen Idealize.ShloMosaic Idealize.ShloMosaic.ValueIdx

/-- Entry (r, n) of the output block, from the query block x0, the resident key rows x1, the column x2 and the row x3. -/
def cell (x0 : Vec Ideal S1x512x64 .bf16) (x1 : Vec Ideal S1x4096x64 .bf16) (x2 : Vec Ideal S1x512x1 .f32) (x3 : Vec Ideal S1x1x4096 .f32)
    (r : Fin 512) (n : Fin 4096) : EReal :=
  Ideal.exp (min (((∑ d : Fin 64, x0 (ix3 (0 : Fin 1) r d) * x1 (ix3 (0 : Fin 1) n d)) + x2 (ix3 (0 : Fin 1) r (0 : Fin 1)))
    + x3 (ix3 (0 : Fin 1) (0 : Fin 1) n)) 0)

/-- The whole output block. -/
def blockOf (x0 : Vec Ideal S1x512x64 .bf16) (x1 : Vec Ideal S1x4096x64 .bf16) (x2 : Vec Ideal S1x512x1 .f32) (x3 : Vec Ideal S1x1x4096 .f32) :
    S1x512x4096.Idx → EReal := fun y => cell x0 x1 x2 x3 (y 1) (y 2)

theorem zero3 : (![0, 0, 0] : Fin 3 → Nat) = fun _ => 0 := funext fun a => by fin_cases a <;> rfl

/-- The query block, loaded whole and with its unit axis dropped, at (r, d). -/
theorem query_apply (x0 : Vec Ideal S1x512x64 .bf16) (r : Fin 512) (d : Fin 64) :
    k0_pay1 (View.ld x0 r0_0) (ix2 r d) = x0 (ix3 (0 : Fin 1) r d) := by
  unfold k0_pay1
  rw [View.ld_unit_zero (S := S1x512x64) zero3]
  exact shapeCast_1ab_ab_apply x0 shapeCasts_S1x512x64_S512x64 r d

/-- The column of half negated squared norms, loaded whole and with its unit axis dropped, at (r, 0). -/
theorem column_apply (x2 : Vec Ideal S1x512x1 .f32) (r : Fin 512) (u : Fin 1) :
    k0_pay2 (View.ld x2 r0_1) (ix2 r u) = x2 (ix3 (0 : Fin 1) r u) := by
  unfold k0_pay2
  rw [View.ld_unit_zero (S := S1x512x1) zero3]
  exact shapeCast_1ab_ab_apply x2 shapeCasts_S1x512x1_S512x1 r u

/-- A chunk computed from the key rows and row-norm entries at column offset `o` is the block's entries at columns o + j. -/
theorem chunk_cell (x0 : Vec Ideal S1x512x64 .bf16) (x1 : Vec Ideal S1x4096x64 .bf16) (x2 : Vec Ideal S1x512x1 .f32) (x3 : Vec Ideal S1x1x4096 .f32)
    (kc : Vec Ideal S1x1024x64 .bf16) (hk : Vec Ideal S1x1x1024 .f32) (o : Nat) (ho : o + 1024 ≤ 4096)
    (hkc : ∀ (j : Fin 1024) (d : Fin 64), kc (ix3 (0 : Fin 1) j d) = x1 (ix3 (0 : Fin 1) (⟨o + j.val, by omega⟩ : Fin 4096) d))
    (hhk : ∀ j : Fin 1024, hk (ix3 (0 : Fin 1) (0 : Fin 1) j) = x3 (ix3 (0 : Fin 1) (0 : Fin 1) (⟨o + j.val, by omega⟩ : Fin 4096)))
    (r : Fin 512) (j : Fin 1024) :
    chunk (k0_pay1 (View.ld x0 r0_0)) (k0_pay2 (View.ld x2 r0_1)) kc hk (ix2 r j)
      = cell x0 x1 x2 x3 r (⟨o + j.val, by omega⟩ : Fin 4096) := by
  rw [chunk_apply, hhk, column_apply]
  unfold cell
  refine congrArg (fun s => Ideal.exp (min ((s + _) + _) 0)) (Finset.sum_congr rfl fun d _ => ?_)
  rw [query_apply, hkc]

/-- One store: the chunk for column offset `o`, with its unit axis put back, agrees with the block function under the
    store's rectangle. -/
theorem store_eq (x0 : Vec Ideal S1x512x64 .bf16) (x1 : Vec Ideal S1x4096x64 .bf16) (x2 : Vec Ideal S1x512x1 .f32) (x3 : Vec Ideal S1x1x4096 .f32)
    (o : Nat) (ho : o + 1024 ≤ 4096)
    (inb : ∀ a, (![0, 0, o] : Fin 3 → Nat) a + S1x512x1024.size a ≤ S1x512x4096.size a)
    (inbk : ∀ a, (![0, o, 0] : Fin 3 → Nat) a + S1x1024x64.size a ≤ S1x4096x64.size a)
    (inbh : ∀ a, (![0, 0, o] : Fin 3 → Nat) a + S1x1x1024.size a ≤ S1x1x4096.size a)
    (x : S1x512x1024.Idx) :
    shapeCast S1x512x1024 (chunk (k0_pay1 (View.ld x0 r0_0)) (k0_pay2 (View.ld x2 r0_1))
        (View.ld x1 (Rect.unit (s := S1x4096x64) ![0, o, 0] S1x1024x64.size inbk))
        (View.ld x3 (Rect.unit (s := S1x1x4096) ![0, 0, o] S1x1x1024.size inbh))) shapeCasts_S512x1024_S1x512x1024 x
      = blockOf x0 x1 x2 x3 ((Rect.unit (s := S1x512x4096) ![0, 0, o] S1x512x1024.size inb).emb x) := by
  obtain ⟨u, r, j, rfl⟩ : ∃ (u : Fin 1) (r : Fin 512) (j : Fin 1024), x = ix3 u r j := ⟨x 0, x 1, x 2, eq_ix3 x⟩
  rw [shapeCast_ab_1ab_apply, chunk_cell x0 x1 x2 x3 _ _ o ho (fun j d => ?_) (fun j => ?_)]
  · unfold blockOf
    exact congrArg₂ (cell x0 x1 x2 x3) (Fin.ext (by show r.val = 0 + 1 * r.val; omega)) (Fin.ext (by show o + j.val = o + 1 * j.val; omega))
  · exact congrArg x1 (funext fun a => Fin.ext (by
      match a with
      | ⟨0, _⟩ => show 0 + 1 * 0 = 0; rfl
      | ⟨1, _⟩ => show o + 1 * j.val = o + j.val; omega
      | ⟨2, _⟩ => show 0 + 1 * d.val = d.val; omega))
  · exact congrArg x3 (funext fun a => Fin.ext (by
      match a with
      | ⟨0, _⟩ => show 0 + 1 * 0 = 0; rfl
      | ⟨1, _⟩ => show 0 + 1 * 0 = 0; rfl
      | ⟨2, _⟩ => show o + 1 * j.val = o + j.val; omega))

/-- The body's stores, taken together, leave the block function. -/
theorem out_eq_blockOf (x0 : Vec Ideal S1x512x64 .bf16) (x1 : Vec Ideal S1x4096x64 .bf16) (x2 : Vec Ideal S1x512x1 .f32) (x3 : Vec Ideal S1x1x4096 .f32) :
    out0_4 x0 x1 x2 x3 = blockOf x0 x1 x2 x3 := by
  funext y
  unfold out0_4
  refine View.canon_apply_of_pieces (Val := Elt Ideal) (blockOf x0 x1 x2 x3) _ ?_ y (cover0_4 _ _ _ _ y)
  intro p hp x
  simp only [List.mem_cons, List.mem_nil_iff, or_false] at hp
  rcases hp with rfl | rfl | rfl | rfl
  · refine (congrFun (pay7_eq _ _ _ _) x).trans ?_
    exact store_eq x0 x1 x2 x3 3072 (by norm_num) inb_S1x512x4096_S1x512x1024_0_0_3072 inb_S1x4096x64_S1x1024x64_0_3072_0 inb_S1x1x4096_S1x1x1024_0_0_3072 x
  · refine (congrFun (pay6_eq _ _ _ _) x).trans ?_
    exact store_eq x0 x1 x2 x3 2048 (by norm_num) inb_S1x512x4096_S1x512x1024_0_0_2048 inb_S1x4096x64_S1x1024x64_0_2048_0 inb_S1x1x4096_S1x1x1024_0_0_2048 x
  · refine (congrFun (pay5_eq _ _ _ _) x).trans ?_
    exact store_eq x0 x1 x2 x3 1024 (by norm_num) inb_S1x512x4096_S1x512x1024_0_0_1024 inb_S1x4096x64_S1x1024x64_0_1024_0 inb_S1x1x4096_S1x1x1024_0_0_1024 x
  · refine (congrFun (pay3_eq _ _ _ _) x).trans ?_
    exact store_eq x0 x1 x2 x3 0 (by norm_num) inb_S1x512x4096_S1x512x1024_0_0_0 inb_S1x4096x64_S1x1024x64_0_0_0 inb_S1x1x4096_S1x1x1024_0_0_0 x

end Cert.KernelIdeal.Body

end
-- ==== Proof.KernelValue.lean ====
/-
  The kernel's result array after the run.

  Grid point t = (head, row block) writes back the 512 × 4096 block of head `head`, rows [512·block, 512·block + 512).
  Its query block and its column of half negated squared norms are the same rows of operands 0 and 2; its key rows and
  its row of norms are ALL rows of that head in operands 1 and 3.  So what a point writes back is its block of one
  whole-array function `pairs3` of the four operand arrays, the 64 blocks tile the [8, 4096, 4096] result, and the
  result array ends holding `pairs3`.
-/
import proofs.«179096_j75196287418966_2_alg».proof.Proof.Gen.KernelIdeal.Frame
import proofs.«179096_j75196287418966_2_alg».proof.Proof.BodyBlock
import Idealize.ShloMosaic.Lib.Pipeline.Value

set_option maxRecDepth 16384

noncomputable section

namespace Cert.KernelIdeal.KernelValue

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

/-- The result as one function of the four operand arrays: entry (h, n, m). -/
def pairs3 (a0 a1 : S8x4096x64.Idx → EReal) (a2 : S8x4096x1.Idx → EReal) (a3 : S8x1x4096.Idx → EReal) : S8x4096x4096.Idx → EReal :=
  fun i => Ideal.exp (min (((∑ d : Fin 64, a0 (ix3 (i 0) (i 1) d) * a1 (ix3 (i 0) (i 2) d)) + a2 (ix3 (i 0) (i 1) (0 : Fin 1)))
    + a3 (ix3 (i 0) (0 : Fin 1) (i 2))) 0)

/-- The block index maps, decided over the 64 grid points: operands 0 and 2 move with the result's block (same head, same
    row block); operands 1 and 3 follow the head only; the last block coordinate is always 0. -/
theorem index_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) < 8 ∧ win0_4.index t (1 : Fin 3) < 8 ∧ win0_4.index t (2 : Fin 3) = 0 :=
  (by decide +kernel : ∀ t : Fin grid0.N, _)

/-- Every (head, row block) is some grid point's. -/
theorem index_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- An index of the result array is in point t's block iff each coordinate is in the block's range on its axis. -/
theorem mem_block (t : Fin cfg0.N) (i : S8x4096x4096.Idx) :
    i ∈ ((cfg0.win 4).blk t).view.set ↔ ∀ a : Fin 3, win0_4.index t a * S1x512x4096.size a ≤ (i a).val ∧ (i a).val < win0_4.index t a * S1x512x4096.size a + S1x512x4096.size a := by
  show i ∈ ((View.whole main_call0_v15).slice (win0_4.rect t)).set ↔ _
  rw [View.set_slice_whole, Rect.mem_set_unit]
  exact Iff.rfl

variable (m : (ℓ : Loc nD τ sig) → Buf (Elt Ideal) ℓ)

/-- A block is a tile of `pairs3`: when the four input blocks are the operands' rows of head `hd` (the query block and the
    column at row block `b`), entry (r, n) of the block function is entry (hd, 512·b + r, n) of `pairs3`. -/
theorem cell_eq_pairs3 (a0 a1 : S8x4096x64.Idx → EReal) (a2 : S8x4096x1.Idx → EReal) (a3 : S8x1x4096.Idx → EReal)
    (x0 : Vec Ideal S1x512x64 .bf16) (x1 : Vec Ideal S1x4096x64 .bf16) (x2 : Vec Ideal S1x512x1 .f32) (x3 : Vec Ideal S1x1x4096 .f32)
    (hd : Fin 8) (b : Nat) (hb : b < 8)
    (h0 : ∀ (r : Fin 512) (d : Fin 64), x0 (ix3 (0 : Fin 1) r d) = a0 (ix3 hd (⟨b * 512 + r.val, by omega⟩ : Fin 4096) d))
    (h1 : ∀ (n : Fin 4096) (d : Fin 64), x1 (ix3 (0 : Fin 1) n d) = a1 (ix3 hd n d))
    (h2 : ∀ r : Fin 512, x2 (ix3 (0 : Fin 1) r (0 : Fin 1)) = a2 (ix3 hd (⟨b * 512 + r.val, by omega⟩ : Fin 4096) (0 : Fin 1)))
    (h3 : ∀ n : Fin 4096, x3 (ix3 (0 : Fin 1) (0 : Fin 1) n) = a3 (ix3 hd (0 : Fin 1) n))
    (r : Fin 512) (n : Fin 4096) :
    cell x0 x1 x2 x3 r n = pairs3 a0 a1 a2 a3 (ix3 hd (⟨b * 512 + r.val, by omega⟩ : Fin 4096) n) := by
  unfold cell pairs3
  rw [h2, h3]
  refine congrArg (fun s => Ideal.exp (min ((s + _) + _) 0)) (Finset.sum_congr rfl fun d _ => ?_)
  rw [h0, h1]

/-- WHAT POINT t WRITES BACK is block t of `pairs3` of the operand arrays as the region finds them. -/
theorem flushed_eq (c : Dev nD) (t : Fin cfg0.N) :
    (dats m 0 c).flushed 4 t = ((cfg0.win 4).blk t).view.read (Elt Ideal)
      (pairs3 (V m c main_call0_v13) (V m c main_call0_v14) (V m c main_call0_v9) (V m c main_call0_v12)) := by
  show (cfg0.win 4).cut (grid0.coords t) ((dats m 0 c).after 4 t) = _
  rw [after0_4, out_eq_blockOf (iblk m c 0 t) (iblk m c 1 t) (iblk m c 2 t) (iblk m c 3 t)]
  obtain ⟨e00, e01, e02, e10, e11, e12, e20, e21, e22, e30, e31, e32, l0, l1, e42⟩ := index_facts t
  funext y
  show cell (iblk m c 0 t) (iblk m c 1 t) (iblk m c 2 t) (iblk m c 3 t) (y 1) (y 2)
    = pairs3 (V m c main_call0_v13) (V m c main_call0_v14) (V m c main_call0_v9) (V m c main_call0_v12) (((cfg0.win 4).blk t).view.emb y)
  have hy0 : (y 0).val < 1 := (y 0).isLt
  have hy1 : (y 1).val < 512 := (y 1).isLt
  have hy : ((cfg0.win 4).blk t).view.emb y
      = ix3 (⟨win0_4.index t (0 : Fin 3), l0⟩ : Fin 8) (⟨win0_4.index t (1 : Fin 3) * 512 + (y 1).val, by omega⟩ : Fin 4096) (y 2) :=
    funext fun a => Fin.ext (by
      match a with
      | ⟨0, _⟩ => show win0_4.index t (0 : Fin 3) * 1 + 1 * (y 0).val = win0_4.index t (0 : Fin 3); omega
      | ⟨1, _⟩ => show win0_4.index t (1 : Fin 3) * 512 + 1 * (y 1).val = win0_4.index t (1 : Fin 3) * 512 + (y 1).val; omega
      | ⟨2, _⟩ => show win0_4.index t (2 : Fin 3) * 4096 + 1 * (y 2).val = (y 2).val; omega)
  rw [hy]
  refine cell_eq_pairs3 (V m c main_call0_v13) (V m c main_call0_v14) (V m c main_call0_v9) (V m c main_call0_v12)
    (iblk m c 0 t) (iblk m c 1 t) (iblk m c 2 t) (iblk m c 3 t) ⟨win0_4.index t (0 : Fin 3), l0⟩ (win0_4.index t (1 : Fin 3)) l1
    (fun r d => ?_) (fun n d => ?_) (fun r => ?_) (fun n => ?_) (y 1) (y 2)
  · show V m c main_call0_v13 (((cfg0.win 0).blk t).view.emb (ix3 (0 : Fin 1) r d)) = _
    exact congrArg _ (funext fun a => Fin.ext (by
      match a with
      | ⟨0, _⟩ => show win0_0.index t (0 : Fin 3) * 1 + 1 * 0 = win0_4.index t (0 : Fin 3); omega
      | ⟨1, _⟩ => show win0_0.index t (1 : Fin 3) * 512 + 1 * r.val = win0_4.index t (1 : Fin 3) * 512 + r.val; omega
      | ⟨2, _⟩ => show win0_0.index t (2 : Fin 3) * 64 + 1 * d.val = d.val; omega))
  · show V m c main_call0_v14 (((cfg0.win 1).blk t).view.emb (ix3 (0 : Fin 1) n d)) = _
    exact congrArg _ (funext fun a => Fin.ext (by
      match a with
      | ⟨0, _⟩ => show win0_1.index t (0 : Fin 3) * 1 + 1 * 0 = win0_4.index t (0 : Fin 3); omega
      | ⟨1, _⟩ => show win0_1.index t (1 : Fin 3) * 4096 + 1 * n.val = n.val; omega
      | ⟨2, _⟩ => show win0_1.index t (2 : Fin 3) * 64 + 1 * d.val = d.val; omega))
  · show V m c main_call0_v9 (((cfg0.win 2).blk t).view.emb (ix3 (0 : Fin 1) r (0 : Fin 1))) = _
    exact congrArg _ (funext fun a => Fin.ext (by
      match a with
      | ⟨0, _⟩ => show win0_2.index t (0 : Fin 3) * 1 + 1 * 0 = win0_4.index t (0 : Fin 3); omega
      | ⟨1, _⟩ => show win0_2.index t (1 : Fin 3) * 512 + 1 * r.val = win0_4.index t (1 : Fin 3) * 512 + r.val; omega
      | ⟨2, _⟩ => show win0_2.index t (2 : Fin 3) * 1 + 1 * 0 = 0; omega))
  · show V m c main_call0_v12 (((cfg0.win 3).blk t).view.emb (ix3 (0 : Fin 1) (0 : Fin 1) n)) = _
    exact congrArg _ (funext fun a => Fin.ext (by
      match a with
      | ⟨0, _⟩ => show win0_3.index t (0 : Fin 3) * 1 + 1 * 0 = win0_4.index t (0 : Fin 3); omega
      | ⟨1, _⟩ => show win0_3.index t (1 : Fin 3) * 1 + 1 * 0 = 0; omega
      | ⟨2, _⟩ => show win0_3.index t (2 : Fin 3) * 4096 + 1 * n.val = n.val; omega))

/-- The 64 blocks tile the result array: entry (h, n, m) lies in the block of the point (h, n / 512). -/
theorem cover (i : S8x4096x4096.Idx) : ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 4096 := (i 2).isLt
  obtain ⟨t, ht⟩ := index_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 4096 ≤ (i 2).val ∧ (i 2).val < win0_4.index t (2 : Fin 3) * 4096 + 4096; omega

/-- THE RESULT ARRAY after the run is `pairs3` of the operand arrays. -/
theorem final (c : Dev nD) : (dats m 0 c).arrAt 4 cfg0.N
    = pairs3 (V m c main_call0_v13) (V m c main_call0_v14) (V m c main_call0_v9) (V m c main_call0_v12) :=
  (dats m 0 c).arrAt_eq_of_cover 4 _ (fun t _ => flushed_eq m c t) cover

end Cert.KernelIdeal.KernelValue

end
-- ==== Proof.HostPrefix.lean ====
/-
  What the kernel's four operand arrays hold when the region is entered, as functions of `query` and `key`.

  Before the launch the host reshapes `query` and `key` from [1, 8, 4096, 64] to [8, 4096, 64], narrows each to bf16 (the
  identity on extended reals), and forms the two "half negated squared norm" arrays:  a column [8, 4096, 1] holding
  (-½)·‖q[h,n,:]‖²  and a row [8, 1, 4096] holding  (-½)·‖k[h,m,:]‖²  (the row is the transposed column of `key`).
  Each is read here at an index given by coordinates.
-/
import proofs.«179096_j75196287418966_2_alg».proof.Proof.Gen.KernelIdeal.Frame
import proofs.«179096_j75196287418966_2_alg».proof.Proof.RbfSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

/-- A [1, 8, 4096, 64] array seen as [8, 4096, 64] and narrowed to bf16. -/
def rows3 (x : S1x8x4096x64.Idx → EReal) : S8x4096x64.Idx → EReal :=
  truncf (F := Ideal) .bf16 (shapeCast S8x4096x64 x shapeCasts_S1x8x4096x64_S8x4096x64) bitsLt_bf16_f32

/-- The squared norms of the rows, [8, 4096]. -/
def sumSq (x : S1x8x4096x64.Idx → EReal) : S8x4096.Idx → EReal :=
  Host.reduceAdd (F := Ideal) (mulf (F := Ideal) (shapeCast S8x4096x64 x shapeCasts_S1x8x4096x64_S8x4096x64) (shapeCast S8x4096x64 x shapeCasts_S1x8x4096x64_S8x4096x64))
    (constant (F := Ideal) S_ .f32 0x00000000#32) reducesTo_S8x4096x64_S8x4096_d2 h_S_

/-- (-½)·‖row‖² as a column [8, 4096, 1]. -/
def negHalfSqCol (x : S1x8x4096x64.Idx → EReal) : S8x4096x1.Idx → EReal :=
  mulf (F := Ideal) (broadcastInDim S8x4096x1 ![] bcast_S_S8x4096x1 (constant (F := Ideal) S_ .f32 0xBF000000#32))
    (broadcastInDim S8x4096x1 ![0, 1] bcast_S8x4096_S8x4096x1_0_1 (sumSq x))

/-- (-½)·‖row‖² as a row [8, 1, 4096]: the column transposed. -/
def negHalfSqRow (x : S1x8x4096x64.Idx → EReal) : S8x1x4096.Idx → EReal :=
  mulf (F := Ideal) (broadcastInDim S8x1x4096 ![] bcast_S_S8x1x4096 (constant (F := Ideal) S_ .f32 0xBF000000#32))
    (transpose S8x1x4096 [0, 2, 1] (broadcastInDim S8x4096x1 ![0, 1] bcast_S8x4096_S8x4096x1_0_1 (sumSq x)) transposes_S8x4096x1_S8x1x4096_0_2_1)

variable (m : (ℓ : Loc nD τ sig) → Buf (Elt Ideal) ℓ)

/-- Operand 0 at region entry: `query`, reshaped and narrowed. -/
theorem V_v13 (c : Dev nD) : (V m c main_call0_v13 : S8x4096x64.Idx → EReal) = rows3 (m ((c : Thread nD τ).loc main_arg0)) := by
  show StableHlo.after hostOps0 (fun b => m (c, b)) (Proc.devRef .tc main_call0_v13) = _
  after_results
  rfl

/-- Operand 1 at region entry: `key`, reshaped and narrowed. -/
theorem V_v14 (c : Dev nD) : (V m c main_call0_v14 : S8x4096x64.Idx → EReal) = rows3 (m ((c : Thread nD τ).loc main_arg1)) := by
  show StableHlo.after hostOps0 (fun b => m (c, b)) (Proc.devRef .tc main_call0_v14) = _
  after_results
  rfl

/-- Operand 2 at region entry: the column of `query`'s half negated squared norms. -/
theorem V_v9 (c : Dev nD) : (V m c main_call0_v9 : S8x4096x1.Idx → EReal) = negHalfSqCol (m ((c : Thread nD τ).loc main_arg0)) := by
  show StableHlo.after hostOps0 (fun b => m (c, b)) (Proc.devRef .tc main_call0_v9) = _
  after_results
  rfl

/-- Operand 3 at region entry: the row of `key`'s half negated squared norms. -/
theorem V_v12 (c : Dev nD) : (V m c main_call0_v12 : S8x1x4096.Idx → EReal) = negHalfSqRow (m ((c : Thread nD τ).loc main_arg1)) := by
  show StableHlo.after hostOps0 (fun b => m (c, b)) (Proc.devRef .tc main_call0_v12) = _
  after_results
  rfl

/-! ## Read at an index -/

/-- Entry (h, n, d) of the reshaped array is entry (0, h, n, d) of the original. -/
theorem rows3_apply (x : S1x8x4096x64.Idx → EReal) (h : Fin 8) (n : Fin 4096) (d : Fin 64) :
    rows3 x (ix3 h n d) = x (ix4 (0 : Fin 1) h n d) :=
  shapeCast_1abc_abc_apply x shapeCasts_S1x8x4096x64_S8x4096x64 h n d

/-- Entry (h, n) of the squared norms is the sum over the 64 features of the squares. -/
theorem sumSq_apply (x : S1x8x4096x64.Idx → EReal) (h : Fin 8) (n : Fin 4096) :
    sumSq x (ix2 h n) = Cert.Rbf.normSq x h n := by
  unfold sumSq
  simp only [Host.reduceAdd, Ideal.hostReduceAdd_def]
  rw [Ideal.hostReduceAdd_single reducesTo_S8x4096x64_S8x4096_d2 (by decide)]
  rw [show constant (F := Ideal) S_ .f32 0x00000000#32 (Shape.Idx.first h_S_) = 0 from Ideal.ofBits_zero_f32, zero_add]
  unfold Cert.Rbf.normSq
  refine Finset.sum_congr rfl fun k _ => ?_
  have row : ∀ y : S8x4096x64.Idx, y = ix3 h n k →
      shapeCast S8x4096x64 x shapeCasts_S1x8x4096x64_S8x4096x64 y = x (ix4 (0 : Fin 1) h n k) :=
    fun y hy => hy ▸ shapeCast_1abc_abc_apply x shapeCasts_S1x8x4096x64_S8x4096x64 h n k
  rw [mulf_apply, row _ (funext fun a => Fin.ext (by match a with | ⟨0, _⟩ => rfl | ⟨1, _⟩ => rfl | ⟨2, _⟩ => rfl))]

/-- The squared norms laid out as a column [8, 4096, 1], read at (h, n, ·). -/
theorem sumSqCol_apply (x : S1x8x4096x64.Idx → EReal) (h : Fin 8) (n : Fin 4096) (u : Fin 1) :
    broadcastInDim S8x4096x1 ![0, 1] bcast_S8x4096_S8x4096x1_0_1 (sumSq x) (ix3 h n u) = Cert.Rbf.normSq x h n := by
  rw [broadcastInDim_apply ![0, 1] bcast_S8x4096_S8x4096x1_0_1 (sumSq x) (ix3 h n u) (ix2 h n) (fun a => match a with
    | ⟨0, _⟩ => by show h.val = if (8 : Nat) = 1 then 0 else h.val; rw [if_neg (by decide)]
    | ⟨1, _⟩ => by show n.val = if (4096 : Nat) = 1 then 0 else n.val; rw [if_neg (by decide)]), sumSq_apply]

/-- Entry (h, n, ·) of the column is (-½)·‖x[h,n,:]‖². -/
theorem negHalfSqCol_apply (x : S1x8x4096x64.Idx → EReal) (h : Fin 8) (n : Fin 4096) (u : Fin 1) :
    negHalfSqCol x (ix3 h n u) = Cert.Rbf.negHalf * Cert.Rbf.normSq x h n := by
  unfold negHalfSqCol
  rw [mulf_apply, sumSqCol_apply]
  rfl

/-- Entry (h, ·, n) of the row is (-½)·‖x[h,n,:]‖². -/
theorem negHalfSqRow_apply (x : S1x8x4096x64.Idx → EReal) (h : Fin 8) (u : Fin 1) (n : Fin 4096) :
    negHalfSqRow x (ix3 h u n) = Cert.Rbf.negHalf * Cert.Rbf.normSq x h n := by
  unfold negHalfSqRow
  rw [mulf_apply, transpose_ix3_021_apply _ transposes_S8x4096x1_S8x1x4096_0_2_1 h u n, sumSqCol_apply]
  rfl

end Cert.KernelIdeal.HostSide

end
-- ==== Proof.KernelRun.lean ====
/-
  The kernel's run, read as a value.

  After the region the host reshapes the [8, 4096, 4096] result array to [1, 8, 4096, 4096].  The result array holds
  `pairs3` of the four operand arrays, the operand arrays are the reshaped inputs and their half negated squared norms, so
  the program's result is the specification's array of `query` and `key` — with no condition on the inputs.
-/
import proofs.«179096_j75196287418966_2_alg».proof.Proof.Gen.KernelIdeal.Frame
import proofs.«179096_j75196287418966_2_alg».proof.Proof.KernelValue
import proofs.«179096_j75196287418966_2_alg».proof.Proof.HostPrefix
import Idealize.ShloMosaic.Lib.StableHlo.Run

noncomputable section

namespace Cert.KernelIdeal.KernelRun

open Cert.KernelIdeal Cert.KernelIdeal.Gen Cert.KernelIdeal.KernelValue Cert.KernelIdeal.HostSide
open Idealize.ShloMosaic Idealize.ShloMosaic.TcCoe Idealize.SL.Sem Idealize.ShloMosaic.StableHlo
open Idealize.ShloMosaic.ValueIdx

/-- `pairs3` of the operands built from `q` and `k`, with a unit axis put in front, is the specification's array. -/
theorem result_eq_rbf (q k : S1x8x4096x64.Idx → EReal) :
    shapeCast S1x8x4096x4096 (pairs3 (rows3 q) (rows3 k) (negHalfSqCol q) (negHalfSqRow k)) shapeCasts_S8x4096x4096_S1x8x4096x4096
      = Cert.Rbf.rbf q k := by
  funext i
  obtain ⟨h, n, j, rfl⟩ : ∃ (h : Fin 8) (n j : Fin 4096), i = ix4 (0 : Fin 1) h n j :=
    ⟨i 1, i 2, i 3, funext fun a => by
      match a with
      | ⟨0, _⟩ => exact Fin.ext (by have : (i 0).val < 1 := (i 0).isLt; show (i 0).val = 0; omega)
      | ⟨1, _⟩ => rfl
      | ⟨2, _⟩ => rfl
      | ⟨3, _⟩ => rfl⟩
  rw [shapeCast_abc_1abc_apply]
  show Ideal.exp (min (((∑ d : Fin 64, rows3 q (ix3 h n d) * rows3 k (ix3 h j d)) + negHalfSqCol q (ix3 h n (0 : Fin 1)))
    + negHalfSqRow k (ix3 h (0 : Fin 1) j)) 0) = _
  rw [negHalfSqCol_apply, negHalfSqRow_apply]
  simp only [rows3_apply]
  rfl

variable (m : (ℓ : Loc nD τ sig) → Buf (Elt Ideal) ℓ) (ρ : Dev nD → PrngReg)

/-- The program's result buffer after the host's last reshape. -/
theorem tail_eq (c : Dev nD) :
    Pipeline.afterTail₀ cfgs (dats m) 0 (V0 m) [hostOps1] c main_v0
      = Cert.Rbf.rbf (m ((c.tc : Thread nD τ).loc main_arg0)) (m ((c.tc : Thread nD τ).loc main_arg1)) := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v15)
      = pairs3 (rows3 (m ((c.tc : Thread nD τ).loc main_arg0))) (rows3 (m ((c.tc : Thread nD τ).loc main_arg1)))
          (negHalfSqCol (m ((c.tc : Thread nD τ).loc main_arg0))) (negHalfSqRow (m ((c.tc : Thread nD τ).loc main_arg1))) := by
    refine ((Pipeline.withArrays_arr spec0 launch0.win.arr_inj c _ _ 4).trans (final m c)).trans ?_
    rw [V_v13, V_v14, V_v9, V_v12]
  show shapeCast S1x8x4096x4096 (Pipeline.withArrays (cfgs 0).spec c (V0 m c) (fun w => (dats m 0 c).arrAt w (cfgs 0).N)
    (Proc.devRef .tc main_call0_v15)) shapeCasts_S8x4096x4096_S1x8x4096x4096 = _
  rw [hw]
  exact result_eq_rbf _ _

/-- THE KERNEL'S RUN: every weakly fair execution terminates with the result buffer at the specification's array of the
    inputs, and the inputs unchanged. -/
theorem run : θ_run defs (onTc (τ := τ) (main (F := Ideal))) ⟨m, fun _ => 0, ρ⟩ fun r => ∀ c : Dev nD,
      r.2.mem ((c.tc : Thread nD τ).loc main_v0)
        = Cert.Rbf.rbf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelRun

end
-- ==== Proof.lean ====
/-
  The pairwise radial-basis-function kernel against its reference:  exp (-½ ‖q[h,n,:] − k[h,m,:]‖²)  for every head h,
  query row n and key row m.

  The kernel never forms the difference.  The host computes the half negated squared norms  (-½)‖q‖²  and  (-½)‖k‖²,  and
  the body adds them to the inner product ⟨q,k⟩ (a matrix product of the bf16-narrowed blocks, which on extended reals is the
  exact product), clamps the sum at 0 from above and exponentiates:   exp (min (⟨q,k⟩ − ½‖q‖² − ½‖k‖², 0)).
  The reference expands the squared distance and clamps it at 0 from below:   exp (-½ · max (‖q‖² + ‖k‖² − 2⟨q,k⟩, 0)).
  Over real numbers the two exponents are equal — distributivity, and a negative factor turns max into min — and the
  precondition says every input entry is a real number.

  • Proof/RbfSpec.lean   the two forms and the law between them, on arrays of extended reals.
  • Proof/Finite.lean    the precondition gives real entries.
  • Proof/RefValue.lean  the reference's result, index by index, is the distance form (hence the expanded form).
  • Proof/HostPrefix.lean, Proof/BodyChunk.lean, Proof/BodyBlock.lean, Proof/KernelValue.lean, Proof/KernelRun.lean
                         the kernel's result is the expanded form: the operands the host prepares, the body's four column
                         chunks as one block function, the 64 blocks tiling the result array, the last reshape.
  The three frame claims are the generated frames (the reference's is its generated run with the result dropped);
  the idealization rewrote nothing, so `preserves` is trivial.
-/
import proofs.«179096_j75196287418966_2_alg».proof.Defs
import proofs.«179096_j75196287418966_2_alg».proof.Proof.Gen.Kernel
import proofs.«179096_j75196287418966_2_alg».proof.Proof.Gen.Kernel.Skeleton
import proofs.«179096_j75196287418966_2_alg».proof.Proof.Gen.Kernel.Launch
import proofs.«179096_j75196287418966_2_alg».proof.Proof.Gen.Kernel.Points
import proofs.«179096_j75196287418966_2_alg».proof.Proof.Gen.Kernel.Frame
import proofs.«179096_j75196287418966_2_alg».proof.Proof.Gen.KernelIdeal
import proofs.«179096_j75196287418966_2_alg».proof.Proof.Gen.KernelIdeal.Skeleton
import proofs.«179096_j75196287418966_2_alg».proof.Proof.Gen.KernelIdeal.Launch
import proofs.«179096_j75196287418966_2_alg».proof.Proof.Gen.KernelIdeal.Points
import proofs.«179096_j75196287418966_2_alg».proof.Proof.Gen.KernelIdeal.Frame
import proofs.«179096_j75196287418966_2_alg».proof.Proof.Gen.ReferenceIdeal
import proofs.«179096_j75196287418966_2_alg».proof.Proof.Gen.Pre_finite_inputs
import proofs.«179096_j75196287418966_2_alg».proof.Proof.Gen.ReferenceIdeal.Run
import proofs.«179096_j75196287418966_2_alg».proof.Proof.Gen.ReferenceIdeal.Read
import proofs.«179096_j75196287418966_2_alg».proof.Proof.RbfSpec
import proofs.«179096_j75196287418966_2_alg».proof.Proof.Finite
import proofs.«179096_j75196287418966_2_alg».proof.Proof.RefValue
import proofs.«179096_j75196287418966_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `query` and `key`, both holding real numbers, the idealized kernel and the idealized
    reference end with the same result array: the specification's, in its expanded form on the kernel's side and — by
    the law for real entries — in its distance form on the reference's. -/
theorem algebraic : Cert.algebraic_KernelIdeal_ReferenceIdeal := by
  intro m ρ m' ρ' hpre hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v17_eq]
  obtain ⟨h0, h1⟩ := Cert.Finite.reals_of_pre _ _ (hpre c)
  exact Cert.ReferenceIdeal.RefValue.reference_eq_rbf _ _ h0 h1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
